-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x256 .f32) (main_arg3 : FVec F S128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S400x10000 : Shape := ⟨2, ![400, 10000]⟩
abbrev S400x128 : Shape := ⟨2, ![400, 128]⟩
abbrev S10000 : Shape := ⟨1, ![10000]⟩
abbrev S10000x1 : Shape := ⟨2, ![10000, 1]⟩

abbrev nBuf : Space → Nat
  | .hbm => 12
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S1x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | .local _ .vmem, ⟨10, _⟩ => ⟨S10000x128, .f32⟩
  | .local _ .vmem, ⟨11, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S128x256_S128x128_0_0 : S128x256.Slices ![0, 0] S128x128
  slices_S128x256_S128x128_0_128 : S128x256.Slices ![0, 128] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩
abbrev S10000 : Shape := ⟨1, ![10000]⟩
abbrev S10000x1 : Shape := ⟨2, ![10000, 1]⟩
abbrev S1x128 : Shape := ⟨2, ![1, 128]⟩
abbrev S10000x256 : Shape := ⟨2, ![10000, 256]⟩
abbrev S256x128 : Shape := ⟨2, ![256, 128]⟩

abbrev nBuf : Space → Nat
  | .hbm => 61
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S_, .i32⟩
  | .hbm, ⟨13, _⟩ => ⟨S_, .f32⟩
  | .hbm, ⟨14, _⟩ => ⟨S10000, .f32⟩
  | .hbm, ⟨15, _⟩ => ⟨S10000x1, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000x1, .f32⟩
  | .hbm, ⟨28, _⟩ => ⟨S10000x1, .f32⟩
  | .hbm, ⟨29, _⟩ => ⟨S10000x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S10000x1, .f32⟩
  | .hbm, ⟨35, _⟩ => ⟨S10000x1, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000x128, .f32⟩
  | .hbm, ⟨43, _⟩ => ⟨S10000x128, .f32⟩
  | .hbm, ⟨44, _⟩ => ⟨S1x128, .f32⟩
  | .hbm, ⟨45, _⟩ => ⟨S10000x128, .f32⟩
  | .hbm, ⟨46, _⟩ => ⟨S10000x128, .f32⟩
  | .hbm, ⟨47, _⟩ => ⟨S1x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x256, .f32⟩
  | .hbm, ⟨52, _⟩ => ⟨S256x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S10000x128, .f32⟩
  | .hbm, ⟨59, _⟩ => ⟨S10000x128, .f32⟩
  | .hbm, ⟨60, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call1_cst : Ref sig .tc := ⟨.hbm, 57, rfl⟩
abbrev main_call1_v0 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  One graph layer, as a function of its six argument arrays, index by index, on the extended reals.

  The layer normalises each row of X (mean and variance over the row's 128 entries, a small positive number
  added to the variance), scales and shifts it by gamma and beta to get H, aggregates H over the dense adjacency
  (N = A · H), applies one linear map to the row [H | N] of 256 entries, adds the bias, clamps at zero and adds X back.

  Two spellings of that function are stated here, because the two programs spell it differently:

  * `outK`: the normalisation MULTIPLIES by the reciprocal square root, the row sums start from nothing, and the
    linear map is taken as two sums of 128 terms, one against the left half of W's columns and one against the right;
  * `outR`: the normalisation DIVIDES by the square root, every row sum starts from the zero word, the variance's
    divisor is 128 minus a count converted from an integer zero, guarded by a comparison that picks the quotient
    when that divisor is positive, and the linear map is one sum of 256 terms over the row [H | N] laid side by side.

  That the two agree when X is finite is Algebra.lean; this file only states them. Float words are kept as patterns.
-/
import Idealize.ShloMosaic.PureOps.Ideal
import Idealize.ShloMosaic.Lib.ValueIdx

noncomputable section

open scoped BigOperators

namespace Cert.Layer

open Idealize.ShloMosaic Idealize.ShloMosaic.ValueIdx

/-- A rank-two array of extended reals. -/
abbrev Arr2 (a b : Nat) : Type := (⟨2, ![a, b]⟩ : Shape).Idx → EReal
/-- A rank-one array of extended reals. -/
abbrev Arr1 (a : Nat) : Type := (⟨1, ![a]⟩ : Shape).Idx → EReal

/-- The words the two programs share: 128, the small number added to the variance, zero; and the
    reference's not-a-number word, which its guard never selects. -/
abbrev w128 : EReal := Ideal.ofBits .f32 0x43000000#32
abbrev wEps : EReal := Ideal.ofBits .f32 0x3727C5AC#32
abbrev wZero : EReal := Ideal.ofBits .f32 0x00000000#32
abbrev wNaN : EReal := Ideal.ofBits .f32 0x7FC00000#32

/-- Column `k` of the left half, and of the right half, of a row of 256. -/
abbrev colL (k : Fin 128) : Fin 256 := Fin.castAdd 128 k
abbrev colR (k : Fin 128) : Fin 256 := Fin.natAdd 128 k

/-! ## The kernel's spelling -/

/-- Row `r`'s mean. -/
def meanK (X : Arr2 10000 128) (r : Fin 10000) : EReal :=
  Ideal.div (∑ k : Fin 128, X (ix2 r k)) w128

/-- Row `r`'s variance: the mean of the squared deviations. -/
def varK (X : Arr2 10000 128) (r : Fin 10000) : EReal :=
  Ideal.div (∑ k : Fin 128, (X (ix2 r k) - meanK X r) * (X (ix2 r k) - meanK X r)) w128

/-- The normalised, scaled and shifted entry (r, j). -/
def normK (X : Arr2 10000 128) (g β : Arr1 128) (r : Fin 10000) (j : Fin 128) : EReal :=
  (X (ix2 r j) - meanK X r) * Ideal.rsqrt (varK X r + wEps) * g (ix1 j) + β (ix1 j)

/-- Entry (r, j) of the aggregation A · H. -/
def aggK (X : Arr2 10000 128) (A : Arr2 10000 10000) (g β : Arr1 128) (r : Fin 10000) (j : Fin 128) : EReal :=
  ∑ l : Fin 10000, A (ix2 r l) * normK X g β l j

/-- Entry (r, q) of the layer's output. -/
def outK (X : Arr2 10000 128) (A : Arr2 10000 10000) (W : Arr2 128 256) (b g β : Arr1 128)
    (r : Fin 10000) (q : Fin 128) : EReal :=
  max ((∑ k : Fin 128, normK X g β r k * W (ix2 q (colL k)))
        + (∑ k : Fin 128, aggK X A g β r k * W (ix2 q (colR k)))
        + b (ix1 q)) wZero
    + X (ix2 r q)

/-- The output array. -/
def arrK (X : Arr2 10000 128) (A : Arr2 10000 10000) (W : Arr2 128 256) (b g β : Arr1 128) : Arr2 10000 128 :=
  fun i => outK X A W b g β (i 0) (i 1)

/-! ## The reference's spelling -/

/-- Row `r`'s mean, the sum started from the zero word. -/
def meanR (X : Arr2 10000 128) (r : Fin 10000) : EReal :=
  Ideal.div (wZero + ∑ k : Fin 128, X (ix2 r k)) w128

/-- The variance's divisor: 128 less an integer zero read as a real. -/
def cntR : EReal := w128 - (((0#32 : BitVec 32).toInt : ℝ) : EReal)

/-- Row `r`'s variance: the guarded quotient. -/
def varR (X : Arr2 10000 128) (r : Fin 10000) : EReal :=
  Scalar.select (Ideal.cmp .ogt cntR wZero)
    (Ideal.div (wZero + ∑ k : Fin 128, (X (ix2 r k) - meanR X r) * (X (ix2 r k) - meanR X r)) cntR)
    wNaN

/-- The normalised, scaled and shifted entry (r, j). -/
def normR (X : Arr2 10000 128) (g β : Arr1 128) (r : Fin 10000) (j : Fin 128) : EReal :=
  Ideal.div (X (ix2 r j) - meanR X r) (Ideal.sqrt (varR X r + wEps)) * g (ix1 j) + β (ix1 j)

/-- Entry (r, j) of the aggregation. -/
def aggR (X : Arr2 10000 128) (A : Arr2 10000 10000) (g β : Arr1 128) (r : Fin 10000) (j : Fin 128) : EReal :=
  ∑ l : Fin 10000, A (ix2 r l) * normR X g β l j

/-- Entry (r, k) of the row [H | N]: the first 128 columns are H's, the last 128 the aggregation's. -/
def catR (X : Arr2 10000 128) (A : Arr2 10000 10000) (g β : Arr1 128) (r : Fin 10000) (k : Fin 256) : EReal :=
  if h : k.val < 128 then normR X g β r ⟨k.val, h⟩ else aggR X A g β r ⟨k.val - 128, by omega⟩

/-- Entry (r, q) of the layer's output. -/
def outR (X : Arr2 10000 128) (A : Arr2 10000 10000) (W : Arr2 128 256) (b g β : Arr1 128)
    (r : Fin 10000) (q : Fin 128) : EReal :=
  max ((∑ k : Fin 256, catR X A g β r k * W (ix2 q k)) + b (ix1 q)) wZero + X (ix2 r q)

/-- The output array. -/
def arrR (X : Arr2 10000 128) (A : Arr2 10000 10000) (W : Arr2 128 256) (b g β : Arr1 128) : Arr2 10000 128 :=
  fun i => outR X A W b g β (i 0) (i 1)

end Cert.Layer

end
-- ==== Proof.Algebra.lean ====
/-
  The two spellings of the layer in Spec.lean are the same array when every entry of X is a real.

  The words: the zero word is 0, the word 128 is the real 128, the small number added to the variance is a positive real.
  The reference's divisor 128 - 0 is 128 and its guard 128 > 0 holds, so its variance is the plain quotient; its sums
  started from the zero word are the sums. With X finite each row's mean is a real and each row's variance a nonnegative
  real, so variance plus the small number is a positive real v, and there dividing by the square root of v is multiplying
  by the reciprocal square root of v, whatever the numerator. The sum of 256 terms over the row laid side by side splits
  into the sum over its left half and the sum over its right half. Nothing else is used: no distributivity, no
  cancellation, and nothing about A, W, b, gamma, beta being finite.
-/
import proofs.«118655_g17257178596104_cont_sun_c4_603_29_alg».proof.Proof.Spec
import Idealize.ShloMosaic.PureOps.Ideal.Laws
import Idealize.ShloMosaic.Lib.ValueIdx
import Mathlib.Algebra.BigOperators.Fin

noncomputable section
open scoped BigOperators
namespace Cert.Layer
open Idealize.ShloMosaic Idealize.ShloMosaic.ValueIdx

/-! ## The words -/

/-- The zero word denotes zero. -/
theorem wZero_eq : wZero = 0 := Ideal.ofBits_zero_f32

/-- The word 128 denotes the real 128: exponent field 134, no fraction. -/
theorem w128_eq : w128 = ((128 : ℝ) : EReal) := by
  simp [Ideal.ofBits, Ideal.ieee, -EReal.coe_mul]; norm_num

/-- The small number added to the variance is a positive real: its exponent field is 110 (neither all zeros nor
    all ones), its sign bit is clear. -/
theorem wEps_pos : ∃ e : ℝ, 0 < e ∧ wEps = (e : EReal) := by
  refine ⟨_, ?_, by simp [Ideal.ofBits, Ideal.ieee, -EReal.coe_mul]; rfl⟩
  positivity

/-! ## The reference's guard and divisor -/

/-- The reference's divisor is 128: the integer zero reads as the real zero. -/
theorem cntR_eq : cntR = w128 := by
  unfold cntR; simp

/-- The guard holds: 128 is positive. -/
theorem guard_eq : Ideal.cmp .ogt cntR wZero = 1#1 := by
  rw [cntR_eq, w128_eq, wZero_eq]
  simp [Ideal.cmp]

/-- The two means agree: a sum started from zero is the sum. -/
theorem meanR_eq (X : Arr2 10000 128) (r : Fin 10000) : meanR X r = meanK X r := by
  unfold meanR meanK; rw [wZero_eq, zero_add]

/-- The two variances agree: the guard picks the quotient, whose divisor is 128. -/
theorem varR_eq (X : Arr2 10000 128) (r : Fin 10000) : varR X r = varK X r := by
  unfold varR varK
  rw [guard_eq, select_one, cntR_eq, wZero_eq, zero_add]
  simp only [meanR_eq]

/-! ## Finite rows -/

/-- A finite sum of real coercions is the coercion of the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The mean of a row of reals is a real. -/
theorem meanK_real (X : Arr2 10000 128) (x : (⟨2, ![10000, 128]⟩ : Shape).Idx → ℝ) (hx : ∀ i, X i = (x i : EReal))
    (r : Fin 10000) : ∃ m : ℝ, meanK X r = (m : EReal) := by
  refine ⟨(∑ k : Fin 128, x (ix2 r k)) * (1 / 128), ?_⟩
  unfold meanK
  simp only [hx]
  rw [coe_sum, w128_eq, Ideal.div_coe (by norm_num), EReal.coe_mul]

/-- The variance of a row of reals is a nonnegative real. -/
theorem varK_real (X : Arr2 10000 128) (x : (⟨2, ![10000, 128]⟩ : Shape).Idx → ℝ) (hx : ∀ i, X i = (x i : EReal))
    (r : Fin 10000) : ∃ v : ℝ, 0 ≤ v ∧ varK X r = (v : EReal) := by
  obtain ⟨m, hm⟩ := meanK_real X x hx r
  refine ⟨(∑ k : Fin 128, (x (ix2 r k) - m) * (x (ix2 r k) - m)) * (1 / 128), ?_, ?_⟩
  · exact mul_nonneg (Finset.sum_nonneg fun k _ => mul_self_nonneg _) (by norm_num)
  · unfold varK
    simp only [hx, hm, ← EReal.coe_sub, ← EReal.coe_mul]
    rw [coe_sum, w128_eq, Ideal.div_coe (by norm_num), EReal.coe_mul]

/-! ## Dividing by the square root is multiplying by the reciprocal square root -/

/-- At a positive real the quotient by the square root is the product with the reciprocal square root, for every
    extended-real numerator. -/
theorem div_sqrt_eq_mul_rsqrt (a : EReal) {v : ℝ} (hv : 0 < v) :
    Ideal.div a (Ideal.sqrt (v : EReal)) = a * Ideal.rsqrt (v : EReal) := by
  have hs : 0 < Real.sqrt v := Real.sqrt_pos.2 hv
  rw [Ideal.sqrt_coe, Ideal.rsqrt_coe, if_neg (not_lt.2 hv.le), if_neg (not_lt.2 hv.le), if_neg hv.ne',
    Ideal.div, if_neg (by exact_mod_cast hs.ne'), EReal.coe_inv]

/-- The two normalisations agree on finite X. -/
theorem normR_eq (X : Arr2 10000 128) (hX : ∀ i, ∃ x : ℝ, X i = (x : EReal)) (g β : Arr1 128)
    (r : Fin 10000) (j : Fin 128) : normR X g β r j = normK X g β r j := by
  choose x hx using hX
  obtain ⟨v, hv0, hv⟩ := varK_real X x hx r
  obtain ⟨e, he0, he⟩ := wEps_pos
  unfold normR normK
  rw [varR_eq, meanR_eq, hv, he, ← EReal.coe_add, div_sqrt_eq_mul_rsqrt _ (by positivity)]

/-- The two aggregations agree on finite X. -/
theorem aggR_eq (X : Arr2 10000 128) (hX : ∀ i, ∃ x : ℝ, X i = (x : EReal)) (A : Arr2 10000 10000) (g β : Arr1 128)
    (r : Fin 10000) (j : Fin 128) : aggR X A g β r j = aggK X A g β r j := by
  unfold aggR aggK
  exact Finset.sum_congr rfl fun l _ => by rw [normR_eq X hX]

/-! ## The linear map over the row laid side by side -/

/-- The left half of the row is the normalised row. -/
theorem catR_colL (X : Arr2 10000 128) (A : Arr2 10000 10000) (g β : Arr1 128) (r : Fin 10000) (k : Fin 128) :
    catR X A g β r (colL k) = normR X g β r k := by
  unfold catR
  rw [dif_pos (by simp [colL])]
  congr 1

/-- The right half of the row is the aggregation's row. -/
theorem catR_colR (X : Arr2 10000 128) (A : Arr2 10000 10000) (g β : Arr1 128) (r : Fin 10000) (k : Fin 128) :
    catR X A g β r (colR k) = aggR X A g β r k := by
  unfold catR
  rw [dif_neg (by simp [colR])]
  congr 1
  apply Fin.ext
  simp [colR]

/-- One sum of 256 terms over the row is the sum over its left half plus the sum over its right half. -/
theorem cat_sum (X : Arr2 10000 128) (A : Arr2 10000 10000) (W : Arr2 128 256) (g β : Arr1 128)
    (r : Fin 10000) (q : Fin 128) :
    (∑ k : Fin 256, catR X A g β r k * W (ix2 q k))
      = (∑ k : Fin 128, normR X g β r k * W (ix2 q (colL k)))
        + (∑ k : Fin 128, aggR X A g β r k * W (ix2 q (colR k))) := by
  have h := Fin.sum_univ_add (M := EReal) (a := 128) (b := 128)
    (fun k : Fin (128 + 128) => catR X A g β r k * W (ix2 q k))
  refine h.trans (congrArg₂ (· + ·) ?_ ?_)
  · exact Finset.sum_congr rfl fun k _ => by rw [← catR_colL]
  · exact Finset.sum_congr rfl fun k _ => by rw [← catR_colR]

/-! ## The two spellings agree -/

/-- Entry by entry. -/
theorem outK_eq_outR (X : Arr2 10000 128) (A : Arr2 10000 10000) (W : Arr2 128 256) (b g β : Arr1 128)
    (hX : ∀ i, ∃ x : ℝ, X i = (x : EReal)) (r : Fin 10000) (q : Fin 128) :
    outK X A W b g β r q = outR X A W b g β r q := by
  unfold outK outR
  rw [cat_sum]
  simp only [normR_eq X hX, aggR_eq X hX]

/-- The kernel's spelling and the reference's spelling of the layer are the same array when X is finite. -/
theorem arrK_eq_arrR (X : Arr2 10000 128) (A : Arr2 10000 10000) (W : Arr2 128 256) (b g β : Arr1 128)
    (hX : ∀ i, ∃ x : ℝ, X i = (x : EReal)) : arrK X A W b g β = arrR X A W b g β := by
  funext i
  exact outK_eq_outR X A W b g β hX (i 0) (i 1)

end Cert.Layer

end
-- ==== Proof.Finite.lean ====
/-
  From the certificate's precondition, every entry of X is a real.

  The precondition is a conjunction of six tests, one per argument array, each saying that every entry's absolute value
  is below the word for plus infinity. Only the first, X's, is read here: the conjunction being 1 makes each conjunct 1,
  a reduction by "and" over all axes being 1 makes every element 1, and an extended real whose absolute value is below
  plus infinity is neither infinity, so it is a real.
-/
import proofs.«118655_g17257178596104_cont_sun_c4_603_29_alg».proof.Pre_finite_inputs
import Idealize.ShloMosaic.PureOps.Ideal.Laws
import Idealize.ShloMosaic.Lib.ValueIdx
import Idealize.ShloMosaic.Lib.ReduceAll

noncomputable section

namespace Cert.Layer.Finite

open Idealize.ShloMosaic

/-- The rank-zero shape has one index. -/
instance : Subsingleton Cert.Pre_finite_inputs.S_.Idx := ⟨fun a b => funext fun d => d.elim0⟩

/-- The word with all exponent bits set and no fraction bits denotes plus infinity. -/
theorem wInf_eq : Ideal.ofBits .f32 0x7F800000#32 = ⊤ := by
  simp [Ideal.ofBits, Ideal.ieee]

/-- An extended real whose absolute value is below plus infinity is a real. -/
theorem real_of_abs_lt (x : EReal)
    (h : Ideal.cmp .olt (max x (-x)) (Ideal.ofBits .f32 0x7F800000#32) = 1#1) : ∃ r : ℝ, x = (r : EReal) := by
  rw [wInf_eq] at h
  induction x using EReal.rec with
  | bot => simp [Ideal.cmp] at h
  | coe r => exact ⟨r, rfl⟩
  | top => simp [Ideal.cmp] at h

/-- The precondition's first conjunct, read at each index of X. -/
theorem x_real [Cert.Pre_finite_inputs.Facts]
    (X : FVec Ideal Cert.Pre_finite_inputs.S10000x128 .f32) (A : FVec Ideal Cert.Pre_finite_inputs.S10000x10000 .f32)
    (W : FVec Ideal Cert.Pre_finite_inputs.S128x256 .f32) (b g β : FVec Ideal Cert.Pre_finite_inputs.S128 .f32)
    (h : Cert.Pre_finite_inputs.fn (F := Ideal) X A W b g β = (fun _ => 1#1)) : ∀ i, ∃ x : ℝ, X i = (x : EReal) := by
  intro i
  have e := congrFun h ValueIdx.ix0
  unfold Cert.Pre_finite_inputs.fn Cert.Pre_finite_inputs.fn_part1 at e
  dsimp only at e
  simp only [andi, IntOp.andi_eq_one] at e
  obtain ⟨⟨⟨⟨⟨h0, -⟩, -⟩, -⟩, -⟩, -⟩ := e
  have hi := Host.reduce_andi_all _ _ _ _ _ h0 i
  exact real_of_abs_lt _ hi

end Cert.Layer.Finite

end
-- ==== Proof.KPieces.lean ====
/-
  What one run of the layer's body leaves behind, read back as values.

  The body runs in two ways. At the first grid point it first normalises the whole of X into two resident
  arrays (one kept at full width, one a narrowed copy), then computes its block of the output. At every later point
  it only computes its block, reading the two resident arrays as the point before left them.
  Each lemma below says that what a run leaves in one buffer is one pure function of what the run read:
  the resident arrays are the normalisation of the staged X, scale and shift; the output block is the block
  function of the staged rows of A, the resident arrays, the point's rows of X, the two halves of W and the bias.
  "The point's rows" of a 10000-row array are the 400 rows starting at the point's row offset.
-/
import proofs.«118655_g17257178596104_cont_sun_c4_603_29_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz : (![0, 0] : Fin 2 → Nat) = fun _ => 0 := funext fun a => by fin_cases a <;> rfl

/-- The 400 rows of a 10000-row array that belong to the grid point with coordinates `i`. -/
def rowsAt (i : grid0.Coords) (X : Vec F S10000x128 .f32) : Vec F S400x128 .f32 :=
  View.ld X (Rect.unit (s := S10000x128) (k0_off1 i) S400x128.size (k0_off1_inb i))

/-- A later point's output block: the block function of the staged inputs and of the two resident arrays
    as the point before left them (`xs0` at full width, `xs1` narrowed). -/
theorem out_later (c : Dev nD) (i : grid0.Coords) (a1 : Memref sig .tc .vmem S400x10000 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S400x128 .f32) (h8 : a8.IsWhole) (a9 : Memref sig .tc .vmem S10000x128 .f32) (h9 : a9.IsWhole) (a10 : Memref sig .tc .vmem S10000x128 .bf16) (h10 : a10.IsWhole) (hc : ¬cond0_0 i)
    (x0 : Vec F S400x10000 .f32) (x1 : Vec F S10000x128 .f32) (x2 : Vec F S1x128 .f32) (x3 : Vec F S1x128 .f32) (x4 : Vec F S128x128 .f32) (x5 : Vec F S128x128 .f32) (x6 : Vec F S1x128 .f32) (xs0 : Vec F S10000x128 .f32) (xs1 : Vec F S10000x128 .bf16) :
    out0_B_7 c i a1 h1 a2 h2 a3 h3 a4 h4 a5 h5 a6 h6 a7 h7 a8 h8 a9 h9 a10 h10 hc x0 x1 x2 x3 x4 x5 x6 xs0 xs1
      = k0_pay4 x0 xs1 (rowsAt i xs0) (rowsAt i x1) x4 x5 x6 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xs0 xs1)]
  unfold kernelRun0_B
  dsimp only
  rw [View.canon_unit_zero hz]
  simp only [View.readAt_eq_ld, h1.read_unread, h2.read_unread, h5.read_unread, h6.read_unread, h7.read_unread,
    h9.read_unread, h10.read_unread, View.ld_unit_zero (S := S400x10000) hz, View.ld_unit_zero (S := S10000x128) hz,
    View.ld_unit_zero (S := S128x128) hz, View.ld_unit_zero (S := S1x128) hz]
  rfl

/-- The first point leaves, in the full-width resident array, the normalisation of the staged X, scale and shift. -/
theorem res_first (c : Dev nD) (i : grid0.Coords) (a1 : Memref sig .tc .vmem S400x10000 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S400x128 .f32) (h8 : a8.IsWhole) (a9 : Memref sig .tc .vmem S10000x128 .f32) (h9 : a9.IsWhole) (a10 : Memref sig .tc .vmem S10000x128 .bf16) (h10 : a10.IsWhole) (hc : cond0_0 i) (x0 : Vec F S400x10000 .f32) (x1 : Vec F S10000x128 .f32) (x2 : Vec F S1x128 .f32) (x3 : Vec F S1x128 .f32) (x4 : Vec F S128x128 .f32) (x5 : Vec F S128x128 .f32) (x6 : Vec F S1x128 .f32) :
    sout0_A_0 c i a1 h1 a2 h2 a3 h3 a4 h4 a5 h5 a6 h6 a7 h7 a8 h8 a9 h9 a10 h10 hc x0 x1 x2 x3 x4 x5 x6 = k0_pay2 x1 x2 x3 := by
  unfold sout0_A_0
  rw [View.read_writes_eq_canon _ _ _ (scover0_A_0 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h2.read_unread, h3.read_unread, h4.read_unread,
    View.ld_unit_zero (S := S10000x128) hz, View.ld_unit_zero (S := S1x128) hz]

/-- ... and, in the narrowed resident array, the narrowed copy of the same. -/
theorem resN_first (c : Dev nD) (i : grid0.Coords) (a1 : Memref sig .tc .vmem S400x10000 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S400x128 .f32) (h8 : a8.IsWhole) (a9 : Memref sig .tc .vmem S10000x128 .f32) (h9 : a9.IsWhole) (a10 : Memref sig .tc .vmem S10000x128 .bf16) (h10 : a10.IsWhole) (hc : cond0_0 i) (x0 : Vec F S400x10000 .f32) (x1 : Vec F S10000x128 .f32) (x2 : Vec F S1x128 .f32) (x3 : Vec F S1x128 .f32) (x4 : Vec F S128x128 .f32) (x5 : Vec F S128x128 .f32) (x6 : Vec F S1x128 .f32) :
    sout0_A_1 c i a1 h1 a2 h2 a3 h3 a4 h4 a5 h5 a6 h6 a7 h7 a8 h8 a9 h9 a10 h10 hc x0 x1 x2 x3 x4 x5 x6 = k0_pay3 x1 x2 x3 := by
  unfold sout0_A_1
  rw [View.read_writes_eq_canon _ _ _ (scover0_A_1 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h2.read_unread, h3.read_unread, h4.read_unread,
    View.ld_unit_zero (S := S10000x128) hz, View.ld_unit_zero (S := S1x128) hz]

/-- The first point's output block: the block function, the two resident arrays being the ones it has just
    written (each read back through the one store that wrote it whole). -/
theorem out_first (c : Dev nD) (i : grid0.Coords) (a1 : Memref sig .tc .vmem S400x10000 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S400x128 .f32) (h8 : a8.IsWhole) (a9 : Memref sig .tc .vmem S10000x128 .f32) (h9 : a9.IsWhole) (a10 : Memref sig .tc .vmem S10000x128 .bf16) (h10 : a10.IsWhole) (hc : cond0_0 i) (x0 : Vec F S400x10000 .f32) (x1 : Vec F S10000x128 .f32) (x2 : Vec F S1x128 .f32) (x3 : Vec F S1x128 .f32) (x4 : Vec F S128x128 .f32) (x5 : Vec F S128x128 .f32) (x6 : Vec F S1x128 .f32) :
    out0_A_7 c i a1 h1 a2 h2 a3 h3 a4 h4 a5 h5 a6 h6 a7 h7 a8 h8 a9 h9 a10 h10 hc x0 x1 x2 x3 x4 x5 x6
      = k0_pay4 x0 (k0_pay3 x1 x2 x3) (rowsAt i (k0_pay2 x1 x2 x3)) (rowsAt i x1) x4 x5 x6 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz, View.readCov_unit_zero _ hz]
  simp only [View.readAt_eq_ld]
  rw [View.read_writes_eq_canon _ _ _ (fun y => ⟨_, List.mem_singleton_self _, View.mem_set_unit_zero hz inb_S10000x128_S10000x128_0_0 y⟩),
    View.canon_unit_zero hz]
  simp only [h1.read_unread, h2.read_unread, h3.read_unread, h4.read_unread, h5.read_unread, h6.read_unread,
    h7.read_unread, View.ld_unit_zero (S := S400x10000) hz, View.ld_unit_zero (S := S10000x128) hz,
    View.ld_unit_zero (S := S128x128) hz, View.ld_unit_zero (S := S1x128) hz]
  rfl

end Cert.KernelIdeal.Hand

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.KNorm.lean ====
/-
  The normalisation the first grid point computes, read at one entry.

  For a 10000-by-128 array x, a scale row and a shift row, the body forms each row's sum, keeps it as a column,
  divides by 128 (the row mean), subtracts it from the row, sums the squared deviations the same way and divides
  by 128 (the row variance), adds the small positive number, takes the reciprocal square root, and multiplies:
  entry (r, j) is  (x r j - mean r) * rsqrt (var r + eps) * scale j + shift j.
  Each intermediate is named here as the body spells it and read at an index by one small lemma.
-/
import proofs.«118655_g17257178596104_cont_sun_c4_603_29_alg».proof.Proof.Spec
import proofs.«118655_g17257178596104_cont_sun_c4_603_29_alg».proof.Proof.LibColumn
import proofs.«118655_g17257178596104_cont_sun_c4_603_29_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Layer Cert.Lib.Column

/-- A row sum kept as a column, read at row `r`: the sum of the row's 128 entries. -/
theorem rowSumCol_apply (v : FVec Ideal S10000x128 .f32) (r : Fin 10000) (u : Fin 1) :
    shapeCast S10000x1 (multiReduction (F := Ideal) .add [1] S10000 v 0x00000000#32 reduces_S10000x128_S10000 (.inl rfl) rfl)
        shapeCasts_S10000_S10000x1 (ix2 r u)
      = ∑ k : Fin 128, v (ix2 r k) := by
  refine (shapeCast_a_a1_apply _ shapeCasts_S10000_S10000x1 r u).trans ?_
  refine (Ideal.multiReduction_add_single v 0x00000000#32 reduces_S10000x128_S10000 (.inl rfl) rfl (ix1 r)).trans ?_
  refine Finset.sum_congr rfl fun k _ => congrArg v ?_
  funext a
  match a with
  | ⟨0, _⟩ => rfl
  | ⟨1, _⟩ => rfl

/-- The column of row means, as the body spells it. -/
def colMean (x : FVec Ideal S10000x128 .f32) : FVec Ideal S10000x1 .f32 :=
  divf (shapeCast S10000x1 (multiReduction (F := Ideal) .add [1] S10000 x 0x00000000#32 reduces_S10000x128_S10000 (.inl rfl) rfl)
      shapeCasts_S10000_S10000x1) (broadcast S10000x1 (Scalar.ofBits (F := Ideal) .f32 0x43000000#32))

theorem colMean_apply (x : FVec Ideal S10000x128 .f32) (r : Fin 10000) (u : Fin 1) :
    colMean x (ix2 r u) = meanK x r := by
  show Ideal.div (shapeCast S10000x1 _ shapeCasts_S10000_S10000x1 (ix2 r u)) _ = _
  rw [rowSumCol_apply]
  rfl

/-- The deviations from the row mean. -/
def dev (x : FVec Ideal S10000x128 .f32) : FVec Ideal S10000x128 .f32 :=
  subf x (broadcastTo S10000x128 (colMean x) broadcasts_S10000x1_S10000x128)

theorem dev_apply (x : FVec Ideal S10000x128 .f32) (r : Fin 10000) (j : Fin 128) :
    dev x (ix2 r j) = x (ix2 r j) - meanK x r := by
  show x (ix2 r j) - broadcastTo S10000x128 (colMean x) broadcasts_S10000x1_S10000x128 (ix2 r j) = _
  rw [broadcastTo_a1_ab_apply, colMean_apply]

/-- The column of row variances. -/
def colVar (x : FVec Ideal S10000x128 .f32) : FVec Ideal S10000x1 .f32 :=
  divf (shapeCast S10000x1 (multiReduction (F := Ideal) .add [1] S10000 (mulf (dev x) (dev x)) 0x00000000#32
      reduces_S10000x128_S10000 (.inl rfl) rfl) shapeCasts_S10000_S10000x1)
    (broadcast S10000x1 (Scalar.ofBits (F := Ideal) .f32 0x43000000#32))

theorem colVar_apply (x : FVec Ideal S10000x128 .f32) (r : Fin 10000) (u : Fin 1) :
    colVar x (ix2 r u) = varK x r := by
  show Ideal.div (shapeCast S10000x1 _ shapeCasts_S10000_S10000x1 (ix2 r u)) _ = _
  rw [rowSumCol_apply]
  show Ideal.div (∑ k : Fin 128, dev x (ix2 r k) * dev x (ix2 r k)) _ = _
  simp only [dev_apply]
  rfl

/-- The normalisation payload is these intermediates put together. -/
theorem pay1_eq (x : FVec Ideal S10000x128 .f32) (gr br : FVec Ideal S1x128 .f32) :
    k0_pay1 (F := Ideal) x gr br
      = addf (mulf (mulf (dev x)
            (broadcastTo S10000x128 (rsqrt (addf (colVar x) (broadcast S10000x1 (Scalar.ofBits (F := Ideal) .f32 0x3727C5AC#32))))
              broadcasts_S10000x1_S10000x128))
          (broadcastTo S10000x128 (shapeCast S1x128 gr shapeCasts_S1x128_S1x128) broadcasts_S1x128_S10000x128))
        (broadcastTo S10000x128 (shapeCast S1x128 br shapeCasts_S1x128_S1x128) broadcasts_S1x128_S10000x128) := rfl

/-- Entry (r, j) of the normalisation: the deviation times the reciprocal square root of the variance plus the small
    number, times the scale row's entry j, plus the shift row's entry j. -/
theorem pay1_apply (x : FVec Ideal S10000x128 .f32) (gr br : FVec Ideal S1x128 .f32) (r : Fin 10000) (j : Fin 128) :
    k0_pay1 (F := Ideal) x gr br (ix2 r j)
      = (x (ix2 r j) - meanK x r) * Ideal.rsqrt (varK x r + wEps) * gr (ix2 (0 : Fin 1) j) + br (ix2 (0 : Fin 1) j) := by
  rw [pay1_eq]
  show dev x (ix2 r j)
        * broadcastTo S10000x128 (rsqrt (addf (colVar x) (broadcast S10000x1 (Scalar.ofBits (F := Ideal) .f32 0x3727C5AC#32))))
            broadcasts_S10000x1_S10000x128 (ix2 r j)
        * broadcastTo S10000x128 (shapeCast S1x128 gr shapeCasts_S1x128_S1x128) broadcasts_S1x128_S10000x128 (ix2 r j)
      + broadcastTo S10000x128 (shapeCast S1x128 br shapeCasts_S1x128_S1x128) broadcasts_S1x128_S10000x128 (ix2 r j) = _
  rw [dev_apply, broadcastTo_a1_ab_apply, broadcastTo_1b_ab_apply, broadcastTo_1b_ab_apply, shapeCast_self, shapeCast_self]
  show _ * Ideal.rsqrt (colVar x (ix2 r (0 : Fin 1)) + wEps) * _ + _ = _
  rw [colVar_apply]

end Cert.KernelIdeal.Hand

end
-- ==== Proof.KBlock.lean ====
/-
  A grid point's block of the output, read at one entry.

  The body multiplies the point's 400 rows of A (10000 columns) by the narrowed resident array (10000 by 128):
  entry (p, k) of that product is the sum over l of A p l times H l k. It multiplies the point's 400 rows of the
  full-width resident array by the left half of W, contracting both on their second axis: entry (p, q) is the sum
  over k of H p k times W1 q k; and the first product by the right half the same way. It adds the two, adds the
  bias row, clamps at zero and adds the point's rows of X.
  A matrix product onto a zero accumulator, read at an entry, is the plain sum over the one contracted coordinate;
  the contraction index is re-indexed by its one coordinate.
-/
import proofs.«118655_g17257178596104_cont_sun_c4_603_29_alg».proof.Proof.Spec
import proofs.«118655_g17257178596104_cont_sun_c4_603_29_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Layer

/-! ## The tall product: 400 by 10000 times 10000 by 128 -/

theorem tall_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

theorem tall_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q

theorem tall_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q

theorem tall_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- Entry (p, k) of the tall product: the sum over the 10000 columns. -/
theorem tall_apply (a : FVec Ideal S400x10000 .bf16) (h : FVec Ideal S10000x128 .bf16) (p : Fin 400) (k : Fin 128) :
    matmul (F := Ideal) dot_S400x10000_S10000x128_S400x128_1_0_0_1_n_n none a h (constant (F := Ideal) S400x128 .f32 0x00000000#32) (ix2 p k)
      = ∑ l : Fin 10000, a (ix2 p l) * h (ix2 l k) := by
  simp only [matmul]
  rw [Ideal.matmul_constant_zero_apply, ← Equiv.sum_comp (contrEquiv1 dot_S400x10000_S10000x128_S400x128_1_0_0_1_n_n 10000 rfl rfl).symm]
  refine Finset.sum_congr rfl fun l _ => ?_
  have hl := contrEquiv1_symm_val dot_S400x10000_S10000x128_S400x128_1_0_0_1_n_n 10000 rfl rfl l
  have el : dot_S400x10000_S10000x128_S400x128_1_0_0_1_n_n.lhsIdx (ix2 p k) ((contrEquiv1 dot_S400x10000_S10000x128_S400x128_1_0_0_1_n_n 10000 rfl rfl).symm l) = ix2 p l :=
    funext fun a => Fin.ext (by
      match a with
      | ⟨0, _⟩ => exact tall_lhs_0 _ _
      | ⟨1, _⟩ => exact (tall_lhs_1 _ _).trans hl)
  have er : dot_S400x10000_S10000x128_S400x128_1_0_0_1_n_n.rhsIdx (ix2 p k) ((contrEquiv1 dot_S400x10000_S10000x128_S400x128_1_0_0_1_n_n 10000 rfl rfl).symm l) = ix2 l k :=
    funext fun a => Fin.ext (by
      match a with
      | ⟨0, _⟩ => exact (tall_rhs_0 _ _).trans hl
      | ⟨1, _⟩ => exact tall_rhs_1 _ _)
  rw [el, er]

/-! ## The square-weight product: 400 by 128 times (128 by 128, contracted on its second axis) -/

theorem sq_lhs_0 (i : S400x128.Idx) (q : dot_S400x128_S128x128_S400x128_1_1_0_0_n_n.contr.Idx) :
    (dot_S400x128_S128x128_S400x128_1_1_0_0_n_n.lhsIdx i q 0).val = (i 0).val := by
  unfold DotDims.lhsIdx
  rw [dif_neg (show ¬(0 : Fin S400x128.rank) ∈ dot_S400x128_S128x128_S400x128_1_1_0_0_n_n.lhsBatch by decide),
    dif_pos (show (0 : Fin S400x128.rank) ∈ dot_S400x128_S128x128_S400x128_1_1_0_0_n_n.lhsNonContracting by decide)]
  rfl

theorem sq_lhs_1 (i : S400x128.Idx) (q : dot_S400x128_S128x128_S400x128_1_1_0_0_n_n.contr.Idx) :
    (dot_S400x128_S128x128_S400x128_1_1_0_0_n_n.lhsIdx i q 1).val = (q ⟨0, by decide⟩).val :=
  dot_S400x128_S128x128_S400x128_1_1_0_0_n_n.lhsIdx_val_of_single rfl i q

theorem sq_rhs_0 (i : S400x128.Idx) (q : dot_S400x128_S128x128_S400x128_1_1_0_0_n_n.contr.Idx) :
    (dot_S400x128_S128x128_S400x128_1_1_0_0_n_n.rhsIdx i q 0).val = (i 1).val := by
  unfold DotDims.rhsIdx
  rw [dif_neg (show ¬(0 : Fin S128x128.rank) ∈ dot_S400x128_S128x128_S400x128_1_1_0_0_n_n.rhsBatch by decide),
    dif_pos (show (0 : Fin S128x128.rank) ∈ dot_S400x128_S128x128_S400x128_1_1_0_0_n_n.rhsNonContracting by decide)]
  rfl

theorem sq_rhs_1 (i : S400x128.Idx) (q : dot_S400x128_S128x128_S400x128_1_1_0_0_n_n.contr.Idx) :
    (dot_S400x128_S128x128_S400x128_1_1_0_0_n_n.rhsIdx i q 1).val = (q ⟨0, by decide⟩).val :=
  dot_S400x128_S128x128_S400x128_1_1_0_0_n_n.rhsIdx_val_of_single rfl i q

/-- Entry (p, q) of a 400-by-128 array times a 128-by-128 weight contracted on the weight's second axis. -/
theorem sq_apply (x : FVec Ideal S400x128 .f32) (w : FVec Ideal S128x128 .f32) (p : Fin 400) (q : Fin 128) :
    matmul (F := Ideal) dot_S400x128_S128x128_S400x128_1_1_0_0_n_n none x w (constant (F := Ideal) S400x128 .f32 0x00000000#32) (ix2 p q)
      = ∑ k : Fin 128, x (ix2 p k) * w (ix2 q k) := by
  simp only [matmul]
  rw [Ideal.matmul_constant_zero_apply, ← Equiv.sum_comp (contrEquiv1 dot_S400x128_S128x128_S400x128_1_1_0_0_n_n 128 rfl rfl).symm]
  refine Finset.sum_congr rfl fun k _ => ?_
  have hk := contrEquiv1_symm_val dot_S400x128_S128x128_S400x128_1_1_0_0_n_n 128 rfl rfl k
  have el : dot_S400x128_S128x128_S400x128_1_1_0_0_n_n.lhsIdx (ix2 p q) ((contrEquiv1 dot_S400x128_S128x128_S400x128_1_1_0_0_n_n 128 rfl rfl).symm k) = ix2 p k :=
    funext fun a => Fin.ext (by
      match a with
      | ⟨0, _⟩ => exact sq_lhs_0 _ _
      | ⟨1, _⟩ => exact (sq_lhs_1 _ _).trans hk)
  have er : dot_S400x128_S128x128_S400x128_1_1_0_0_n_n.rhsIdx (ix2 p q) ((contrEquiv1 dot_S400x128_S128x128_S400x128_1_1_0_0_n_n 128 rfl rfl).symm k) = ix2 q k :=
    funext fun a => Fin.ext (by
      match a with
      | ⟨0, _⟩ => exact sq_rhs_0 _ _
      | ⟨1, _⟩ => exact (sq_rhs_1 _ _).trans hk)
  rw [el, er]

/-! ## The block -/

/-- The block payload, spelt out. -/
theorem pay4_eq (v3 : FVec Ideal S400x10000 .f32) (v5 : FVec Ideal S10000x128 .bf16) (v9 v12 : FVec Ideal S400x128 .f32)
    (v13 v16 : FVec Ideal S128x128 .f32) (v20 : FVec Ideal S1x128 .f32) :
    k0_pay4 (F := Ideal) v3 v5 v9 v12 v13 v16 v20
      = addf (maximumf
          (addf (addf
              (matmul (F := Ideal) dot_S400x128_S128x128_S400x128_1_1_0_0_n_n none v9 (shapeCast S128x128 v13 shapeCasts_S128x128_S128x128)
                (constant (F := Ideal) S400x128 .f32 0x00000000#32))
              (matmul (F := Ideal) dot_S400x128_S128x128_S400x128_1_1_0_0_n_n none
                (matmul (F := Ideal) dot_S400x10000_S10000x128_S400x128_1_0_0_1_n_n none (truncf .bf16 v3 bitsLt_bf16_f32) v5 (constant (F := Ideal) S400x128 .f32 0x00000000#32))
                (shapeCast S128x128 v16 shapeCasts_S128x128_S128x128) (constant (F := Ideal) S400x128 .f32 0x00000000#32)))
            (broadcastTo S400x128 (shapeCast S1x128 v20 shapeCasts_S1x128_S1x128) broadcasts_S1x128_S400x128))
          (broadcast S400x128 (Scalar.ofBits (F := Ideal) .f32 0x00000000#32)))
        v12 := rfl

/-- Entry (p, q) of the block. -/
theorem pay4_apply (v3 : FVec Ideal S400x10000 .f32) (v5 : FVec Ideal S10000x128 .bf16) (v9 v12 : FVec Ideal S400x128 .f32)
    (v13 v16 : FVec Ideal S128x128 .f32) (v20 : FVec Ideal S1x128 .f32) (p : Fin 400) (q : Fin 128) :
    k0_pay4 (F := Ideal) v3 v5 v9 v12 v13 v16 v20 (ix2 p q)
      = max ((∑ k : Fin 128, v9 (ix2 p k) * v13 (ix2 q k))
            + (∑ k : Fin 128, (∑ l : Fin 10000, v3 (ix2 p l) * v5 (ix2 l k)) * v16 (ix2 q k))
            + v20 (ix2 (0 : Fin 1) q)) wZero
        + v12 (ix2 p q) := by
  rw [pay4_eq]
  show max (matmul (F := Ideal) dot_S400x128_S128x128_S400x128_1_1_0_0_n_n none v9 _ _ (ix2 p q) + matmul (F := Ideal) dot_S400x128_S128x128_S400x128_1_1_0_0_n_n none _ _ _ (ix2 p q)
        + broadcastTo S400x128 _ broadcasts_S1x128_S400x128 (ix2 p q)) wZero + v12 (ix2 p q) = _
  rw [sq_apply, sq_apply, broadcastTo_1b_ab_apply, shapeCast_self, shapeCast_self, shapeCast_self]
  simp only [tall_apply]
  rfl

end Cert.KernelIdeal.Hand

end
-- ==== Proof.KHost.lean ====
/-
  What the launch finds in the arrays the program prepares before it.

  Before the grid runs, the program cuts W (128 by 256) into its left and right column halves and lays the bias,
  the scale and the shift (128 entries each) out as one-row arrays. Read at an entry: the left half at (q, k) is
  W at (q, k); the right half at (q, k) is W at (q, 128 + k); a one-row array at (0, j) is the vector at j.
-/
import proofs.«118655_g17257178596104_cont_sun_c4_603_29_alg».proof.Proof.Spec
import proofs.«118655_g17257178596104_cont_sun_c4_603_29_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Cert.Layer

variable (m : (ℓ : Loc nD τ sig) → Buf (Elt Ideal) ℓ)

/-- The left half of W's columns, as the launch finds it. -/
theorem V_wL (c : Dev nD) (q k : Fin 128) :
    (V m c main_v0 : S128x128.Idx → EReal) (ix2 q k)
      = (m ((c : Thread nD τ).loc main_arg2) : S128x256.Idx → EReal) (ix2 q (colL k)) := by
  have e : (V m c main_v0 : S128x128.Idx → EReal)
      = extractStridedSlice S128x128 ![0, 0] (m ((c : Thread nD τ).loc main_arg2)) slices_S128x256_S128x128_0_0 := by
    dsimp only [Gen.V, Gen.hostOps0]; after_results
  rw [e]
  exact slice2_axis1_apply 0 _ _ q k (colL k) (Nat.zero_add _).symm

/-- The right half of W's columns. -/
theorem V_wR (c : Dev nD) (q k : Fin 128) :
    (V m c main_v1 : S128x128.Idx → EReal) (ix2 q k)
      = (m ((c : Thread nD τ).loc main_arg2) : S128x256.Idx → EReal) (ix2 q (colR k)) := by
  have e : (V m c main_v1 : S128x128.Idx → EReal)
      = extractStridedSlice S128x128 ![0, 128] (m ((c : Thread nD τ).loc main_arg2)) slices_S128x256_S128x128_0_128 := by
    dsimp only [Gen.V, Gen.hostOps0]; after_results
  rw [e]
  exact slice2_axis1_apply 128 _ _ q k (colR k) rfl

/-- The scale, as one row. -/
theorem V_scale (c : Dev nD) (u : Fin 1) (j : Fin 128) :
    (V m c main_v2 : S1x128.Idx → EReal) (ix2 u j) = (m ((c : Thread nD τ).loc main_arg4) : S128.Idx → EReal) (ix1 j) := by
  have e : (V m c main_v2 : S1x128.Idx → EReal)
      = shapeCast S1x128 (m ((c : Thread nD τ).loc main_arg4) : S128.Idx → EReal) shapeCasts_S128_S1x128 := by
    dsimp only [Gen.V, Gen.hostOps0]; after_results; rfl
  rw [e]
  exact shapeCast_a_1a_apply _ _ u j

/-- The shift, as one row. -/
theorem V_shift (c : Dev nD) (u : Fin 1) (j : Fin 128) :
    (V m c main_v3 : S1x128.Idx → EReal) (ix2 u j) = (m ((c : Thread nD τ).loc main_arg5) : S128.Idx → EReal) (ix1 j) := by
  have e : (V m c main_v3 : S1x128.Idx → EReal)
      = shapeCast S1x128 (m ((c : Thread nD τ).loc main_arg5) : S128.Idx → EReal) shapeCasts_S128_S1x128 := by
    dsimp only [Gen.V, Gen.hostOps0]; after_results; rfl
  rw [e]
  exact shapeCast_a_1a_apply _ _ u j

/-- The bias, as one row. -/
theorem V_bias (c : Dev nD) (u : Fin 1) (j : Fin 128) :
    (V m c main_v4 : S1x128.Idx → EReal) (ix2 u j) = (m ((c : Thread nD τ).loc main_arg3) : S128.Idx → EReal) (ix1 j) := by
  have e : (V m c main_v4 : S1x128.Idx → EReal)
      = shapeCast S1x128 (m ((c : Thread nD τ).loc main_arg3) : S128.Idx → EReal) shapeCasts_S128_S1x128 := by
    dsimp only [Gen.V, Gen.hostOps0]; after_results; rfl
  rw [e]
  exact shapeCast_a_1a_apply _ _ u j

end Cert.KernelIdeal.Hand

end
-- ==== Proof.KFinal.lean ====
/-
  The kernel's result array is the layer, index by index.

  The grid has 25 points; point t owns rows 400 t to 400 t + 399 of the output. Each later point reads the two
  resident arrays as the point before left them, and no later point writes them, so after EVERY point they hold the
  normalisation of X that the first point stored (an induction over the points). Hence every point writes back the
  same block function of its own rows, and that block is the layer's output restricted to the point's rows.
  The 25 blocks tile the array, so the array after the run is the layer's output everywhere.
-/
import proofs.«118655_g17257178596104_cont_sun_c4_603_29_alg».proof.Proof.Spec
import proofs.«118655_g17257178596104_cont_sun_c4_603_29_alg».proof.Proof.KPieces
import proofs.«118655_g17257178596104_cont_sun_c4_603_29_alg».proof.Proof.KNorm
import proofs.«118655_g17257178596104_cont_sun_c4_603_29_alg».proof.Proof.KBlock
import proofs.«118655_g17257178596104_cont_sun_c4_603_29_alg».proof.Proof.KHost
import proofs.«118655_g17257178596104_cont_sun_c4_603_29_alg».proof.Proof.Gen.KernelIdeal.Value
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Layer

variable (m : (ℓ : Loc nD τ sig) → Buf (Elt Ideal) ℓ) (ρ : Dev nD → PrngReg)

/-- The six argument arrays on core `c`. -/
abbrev aX (c : Dev nD) : Arr2 10000 128 := m ((c : Thread nD τ).loc main_arg0)
abbrev aA (c : Dev nD) : Arr2 10000 10000 := m ((c : Thread nD τ).loc main_arg1)
abbrev aW (c : Dev nD) : Arr2 128 256 := m ((c : Thread nD τ).loc main_arg2)
abbrev aB (c : Dev nD) : Arr1 128 := m ((c : Thread nD τ).loc main_arg3)
abbrev aG (c : Dev nD) : Arr1 128 := m ((c : Thread nD τ).loc main_arg4)
abbrev aS (c : Dev nD) : Arr1 128 := m ((c : Thread nD τ).loc main_arg5)

/-- The printed index maps, decided once over the 25 points: the rows of A and the output block move with the
    point, every other window stays at block (0, 0); and the point's one coordinate is its position. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ (grid0.coords t 0).val = t.val :=
  (by decide +kernel : ∀ t : Fin grid0.N, _)

/-! ## The windows' blocks -/

/-- X is staged whole at every point. -/
theorem blkX (c : Dev nD) (t : Fin cfg0.N) : (iblk m c 1 t : S10000x128.Idx → EReal) = V m c main_arg0 := by
  obtain ⟨-, -, e0, e1, -⟩ := idx_facts t
  funext y
  show V m c main_arg0 (((cfg0.win 1).blk t).view.emb y) = V m c main_arg0 y
  refine congrArg _ (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The scale row, the shift row, the two halves of W and the bias row are staged whole at every point. -/
theorem blkScale (c : Dev nD) (t : Fin cfg0.N) : (iblk m c 2 t : S1x128.Idx → EReal) = V m c main_v2 := by
  obtain ⟨-, -, -, -, e0, e1, -⟩ := idx_facts t
  funext y
  show V m c main_v2 (((cfg0.win 2).blk t).view.emb y) = V m c main_v2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blkShift (c : Dev nD) (t : Fin cfg0.N) : (iblk m c 3 t : S1x128.Idx → EReal) = V m c main_v3 := by
  obtain ⟨-, -, -, -, -, -, e0, e1, -⟩ := idx_facts t
  funext y
  show V m c main_v3 (((cfg0.win 3).blk t).view.emb y) = V m c main_v3 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem blkWL (c : Dev nD) (t : Fin cfg0.N) : (iblk m c 4 t : S128x128.Idx → EReal) = V m c main_v0 := by
  obtain ⟨-, -, -, -, -, -, -, -, e0, e1, -⟩ := idx_facts t
  funext y
  show V m c main_v0 (((cfg0.win 4).blk t).view.emb y) = V m c main_v0 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blkWR (c : Dev nD) (t : Fin cfg0.N) : (iblk m c 5 t : S128x128.Idx → EReal) = V m c main_v1 := by
  obtain ⟨-, -, -, -, -, -, -, -, -, -, e0, e1, -⟩ := idx_facts t
  funext y
  show V m c main_v1 (((cfg0.win 5).blk t).view.emb y) = V m c main_v1 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blkBias (c : Dev nD) (t : Fin cfg0.N) : (iblk m c 6 t : S1x128.Idx → EReal) = V m c main_v4 := by
  obtain ⟨-, -, -, -, -, -, -, -, -, -, -, -, e0, e1, -⟩ := idx_facts t
  funext y
  show V m c main_v4 (((cfg0.win 6).blk t).view.emb y) = V m c main_v4 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## The resident arrays after every point -/

/-- The normalisation of X the first point stores, at full width and narrowed. -/
def resFull (c : Dev nD) : Vec Ideal S10000x128 .f32 := k0_pay2 (F := Ideal) (V m c main_arg0) (V m c main_v2) (V m c main_v3)
def resNarrow (c : Dev nD) : Vec Ideal S10000x128 .bf16 := k0_pay3 (F := Ideal) (V m c main_arg0) (V m c main_v2) (V m c main_v3)

/-- After EVERY point the two resident arrays hold it: the first point stores it, a later point stores nothing there. -/
theorem resident (c : Dev nD) : ∀ (n : ℕ) (h : n < cfg0.N),
    (outsAt0 m c n h).2.1 = resFull m c ∧ (outsAt0 m c n h).2.2 = resNarrow m c
  | 0, h => by
    rw [outsAt0_A m c ⟨0, h⟩ rfl]
    dsimp only
    rw [res_first, resN_first, blkX, blkScale, blkShift]
    exact ⟨rfl, rfl⟩
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0 sout0_B_1
    exact resident c n _

/-! ## What every point writes back -/

/-- At EVERY point the output's staging buffer ends holding the block function of the point's rows of A, the two
    resident arrays, the point's rows of X, the two halves of W and the bias row. -/
theorem out_at (c : Dev nD) (t : Fin cfg0.N) :
    (outsAt0 m c t.val t.isLt).1
      = k0_pay4 (F := Ideal) (iblk m c 0 t) (resNarrow m c) (rowsAt (grid0.coords t) (resFull m c))
          (rowsAt (grid0.coords t) (V m c main_arg0)) (V m c main_v0) (V m c main_v1) (V m c main_v4) := by
  by_cases h0 : t.val % 25 = 0
  · rw [outsAt0_A m c t h0]
    dsimp only
    rw [out_first, blkX, blkScale, blkShift, blkWL, blkWR, blkBias]
    rfl
  · rw [outsAt0_B m c t h0]
    dsimp only
    rw [out_later, (resident m c _ _).1, (resident m c _ _).2, blkX, blkWL, blkWR, blkBias]

/-! ## Entries -/

/-- The point's rows of a 10000-row array, read at (p, k): the array at row 400 t + p. -/
theorem rowsAt_apply (t : Fin cfg0.N) (Z : Vec Ideal S10000x128 .f32) (p : Fin 400) (k : Fin 128) (r : Fin 10000)
    (hr : r.val = 400 * t.val + p.val) : rowsAt (grid0.coords t) Z (ix2 p k) = Z (ix2 r k) := by
  have ec : (grid0.coords t 0).val = t.val := (idx_facts t).2.2.2.2.2.2.2.2.2.2.2.2.2.2.2.2
  unfold rowsAt
  show Z ((Rect.unit (s := S10000x128) (k0_off1 (grid0.coords t)) S400x128.size (k0_off1_inb (grid0.coords t))).idx (ix2 p k)) = _
  refine congrArg Z (funext fun a => Fin.ext ?_)
  match a with
  | ⟨0, _⟩ =>
    show k0_off1 (grid0.coords t) 0 + 1 * p.val = r.val
    rw [k0_off1_eq]
    show 400 * (grid0.coords t 0).val + 1 * p.val = r.val
    omega
  | ⟨1, _⟩ =>
    show k0_off1 (grid0.coords t) 1 + 1 * k.val = k.val
    rw [k0_off1_eq]
    show 0 + 1 * k.val = k.val
    omega

/-- The point's rows of A, read at (p, l). -/
theorem rowsA_apply (c : Dev nD) (t : Fin cfg0.N) (p : Fin 400) (l r : Fin 10000) (hr : r.val = 400 * t.val + p.val) :
    (iblk m c 0 t : S400x10000.Idx → EReal) (ix2 p l) = aA m c (ix2 r l) := by
  obtain ⟨e0, e1, -⟩ := idx_facts t
  show V m c main_arg1 (((cfg0.win 0).blk t).view.emb (ix2 p l)) = _
  rw [V_main_arg1]
  refine congrArg (aA m c) (funext fun a => Fin.ext ?_)
  match a with
  | ⟨0, _⟩ => show win0_0.index t (0 : Fin 2) * 400 + 1 * p.val = r.val; omega
  | ⟨1, _⟩ => show win0_0.index t (1 : Fin 2) * 10000 + 1 * l.val = l.val; omega

/-- Entry (r, j) of the full-width resident array is the layer's normalised entry. -/
theorem resFull_apply (c : Dev nD) (r : Fin 10000) (j : Fin 128) :
    resFull m c (ix2 r j) = normK (aX m c) (aG m c) (aS m c) r j := by
  unfold resFull k0_pay2
  rw [shapeCast_self]
  refine (pay1_apply _ _ _ r j).trans ?_
  rw [V_scale, V_shift, V_main_arg0]
  rfl

/-- ... and so is the narrowed one's (narrowing changes no value here). -/
theorem resNarrow_apply (c : Dev nD) (r : Fin 10000) (j : Fin 128) :
    resNarrow m c (ix2 r j) = normK (aX m c) (aG m c) (aS m c) r j := by
  unfold resNarrow k0_pay3
  rw [shapeCast_self]
  show k0_pay1 (F := Ideal) _ _ _ (ix2 r j) = _
  refine (pay1_apply _ _ _ r j).trans ?_
  rw [V_scale, V_shift, V_main_arg0]
  rfl

/-! ## A point's block is the layer's output on the point's rows -/

/-- The layer's output over the arguments on core `c`. -/
abbrev layerOut (c : Dev nD) : Arr2 10000 128 := arrK (aX m c) (aA m c) (aW m c) (aB m c) (aG m c) (aS m c)

/-- Entry (p, q) of point t's block is the layer's output at row 400 t + p, column q. -/
theorem block_entry (c : Dev nD) (t : Fin cfg0.N) (p : Fin 400) (q : Fin 128) (r : Fin 10000) (hr : r.val = 400 * t.val + p.val) :
    k0_pay4 (F := Ideal) (iblk m c 0 t) (resNarrow m c) (rowsAt (grid0.coords t) (resFull m c))
        (rowsAt (grid0.coords t) (V m c main_arg0)) (V m c main_v0) (V m c main_v1) (V m c main_v4) (ix2 p q)
      = outK (aX m c) (aA m c) (aW m c) (aB m c) (aG m c) (aS m c) r q := by
  refine (pay4_apply (iblk m c 0 t) (resNarrow m c) (rowsAt (grid0.coords t) (resFull m c))
    (rowsAt (grid0.coords t) (V m c main_arg0)) (V m c main_v0) (V m c main_v1) (V m c main_v4) p q).trans ?_
  unfold outK aggK
  simp only [rowsAt_apply t _ p _ r hr, rowsA_apply m c t p _ r hr, resFull_apply, resNarrow_apply]
  refine congrArg₂ (· + ·) (congrArg (max · wZero) (congrArg₂ (· + ·) (congrArg₂ (· + ·)
    (Finset.sum_congr rfl fun k _ => ?_) (Finset.sum_congr rfl fun k _ => ?_)) (V_bias m c 0 q)))
    (congrFun (V_main_arg0 m c) (ix2 r q))
  · exact congrArg (fun z => normK (aX m c) (aG m c) (aS m c) r k * z) (V_wL m c q k)
  · exact congrArg (fun z => (∑ l : Fin 10000, aA m c (ix2 r l) * normK (aX m c) (aG m c) (aS m c) l k) * z) (V_wR m c q k)

/-- The same at a block index of the output's block shape. -/
theorem block_at (c : Dev nD) (t : Fin cfg0.N) (y : S400x128.Idx) :
    k0_pay4 (F := Ideal) (iblk m c 0 t) (resNarrow m c) (rowsAt (grid0.coords t) (resFull m c))
        (rowsAt (grid0.coords t) (V m c main_arg0)) (V m c main_v0) (V m c main_v1) (V m c main_v4) y
      = layerOut m c (((cfg0.win 7).blk t).view.emb y) := by
  have e0 : win0_7.index t (0 : Fin 2) = t.val := (idx_facts t).2.2.2.2.2.2.2.2.2.2.2.2.2.2.1
  have e1 : win0_7.index t (1 : Fin 2) = 0 := (idx_facts t).2.2.2.2.2.2.2.2.2.2.2.2.2.2.2.1
  have hN : cfg0.N = 25 := N_0
  obtain ⟨p, q, rfl⟩ : ∃ (p : Fin 400) (q : Fin 128), y = ix2 p q := ⟨y 0, y 1, eq_ix2 y⟩
  have hlt : 400 * t.val + p.val < 10000 := by have := t.isLt; have := p.isLt; omega
  have hemb : ((cfg0.win 7).blk t).view.emb (ix2 p q) = ix2 (⟨400 * t.val + p.val, hlt⟩ : Fin 10000) q :=
    funext fun a => Fin.ext (by
      match a with
      | ⟨0, _⟩ => show win0_7.index t (0 : Fin 2) * 400 + 1 * p.val = 400 * t.val + p.val; omega
      | ⟨1, _⟩ => show win0_7.index t (1 : Fin 2) * 128 + 1 * q.val = q.val; omega)
  rw [hemb]
  exact block_entry m c t p q ⟨400 * t.val + p.val, hlt⟩ rfl

/-- WHAT POINT t WRITES BACK is block t of the layer's output. -/
theorem flushed_eq (c : Dev nD) (t : Fin cfg0.N) :
    (dats m 0 c).flushed 7 t = ((cfg0.win 7).blk t).view.read (Elt Ideal) (layerOut m c) := by
  rw [Cert.KernelIdeal.Value.flushed7, out_at]
  funext y
  exact block_at m c t y

/-- An index of the array is in point t's block iff each coordinate is in the block's range on its axis. -/
theorem mem_blk (t : Fin cfg0.N) (i : S10000x128.Idx) :
    i ∈ ((cfg0.win 7).blk t).view.set ↔ ∀ a : Fin 2, win0_7.index t a * S400x128.size a ≤ (i a).val
      ∧ (i a).val < win0_7.index t a * S400x128.size a + S400x128.size a := by
  show i ∈ ((View.whole main_v5).slice (win0_7.rect t)).set ↔ _
  rw [View.set_slice_whole, Rect.mem_set_unit]
  exact Iff.rfl

/-- Every index of the array is in some point's block: row r belongs to point r / 400. -/
theorem covered (i : S10000x128.Idx) :
    ∃ t : Fin cfg0.N, (cfg0.win 7).flush t = true ∧ i ∈ ((cfg0.win 7).blk t).view.set := by
  have hN : cfg0.N = 25 := N_0
  have hi0 : (i 0).val < 10000 := (i 0).isLt
  have hi1 : (i 1).val < 128 := (i 1).isLt
  have ht : (i 0).val / 400 < cfg0.N := by omega
  have e0 : win0_7.index ⟨(i 0).val / 400, ht⟩ (0 : Fin 2) = (i 0).val / 400 := (idx_facts ⟨_, ht⟩).2.2.2.2.2.2.2.2.2.2.2.2.2.2.1
  have e1 : win0_7.index ⟨(i 0).val / 400, ht⟩ (1 : Fin 2) = 0 := (idx_facts ⟨_, ht⟩).2.2.2.2.2.2.2.2.2.2.2.2.2.2.2.1
  refine ⟨⟨(i 0).val / 400, ht⟩, flush0_7 _, ?_⟩
  rw [mem_blk]
  intro a
  match a with
  | ⟨0, _⟩ =>
    show win0_7.index ⟨(i 0).val / 400, ht⟩ (0 : Fin 2) * 400 ≤ (i 0).val
      ∧ (i 0).val < win0_7.index ⟨(i 0).val / 400, ht⟩ (0 : Fin 2) * 400 + 400
    omega
  | ⟨1, _⟩ =>
    show win0_7.index ⟨(i 0).val / 400, ht⟩ (1 : Fin 2) * 128 ≤ (i 1).val
      ∧ (i 1).val < win0_7.index ⟨(i 0).val / 400, ht⟩ (1 : Fin 2) * 128 + 128
    omega

/-- THE ARRAY after the run is the layer's output. -/
theorem final (c : Dev nD) : (dats m 0 c).arrAt 7 cfg0.N = layerOut m c :=
  (dats m 0 c).arrAt_eq_of_cover 7 (layerOut m c) (fun t _ => flushed_eq m c t) (covered)

/-- The run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v5) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Hand

end
-- ==== Proof.RefRun.lean ====
/-
  The reference program's @main as the list of its fifty-five host operations, the three calls' bodies listed in
  place over the calls' buffer records, and its run read back: every weakly fair execution terminates with the result
  buffer at the operations' composed term of the argument arrays, the arguments unchanged.

  The composed term is stated through four named stages, each a function of the argument arrays: the column of row
  means, the column of guarded row variances, the normalised, scaled and shifted array H, and the output.
-/
import proofs.«118655_g17257178596104_cont_sun_c4_603_29_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's fifty-five operations in order, the calls unfolded: seven of @main's own (the row sums of X from the zero
    word, their division by 128: the means; the integer zero), the variance function's twenty (the means again, the
    squared deviations, the divisor 128 less the integer zero read as a real, the row sums, the quotient, the
    comparison of the divisor with zero, the not-a-number word) and the three of the selection it calls, twenty-one of
    @main's own (the normalisation, the aggregation, the row [H | N], the linear map, the bias), the clamp's three, and
    the residual sum. -/
abbrev ops : List (HloOp τ sig (Elt F)) :=
  [ nullary main_cst (constant S_ .f32 0x00000000#32),
    binary main_arg0 main_cst main_v0 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v0 main_v1 (broadcastInDim S10000x1 ![0] bcast_S10000_S10000x1_0 : (⟨S10000, .f32⟩ : BufTy).Contents (Elt F) → (⟨S10000x1, .f32⟩ : BufTy).Contents (Elt F)),
    nullary main_cst_0 (constant S_ .f32 0x43000000#32),
    unary main_cst_0 main_v2 (broadcastInDim S10000x1 ![] bcast_S_S10000x1 : (⟨S_, .f32⟩ : BufTy).Contents (Elt F) → (⟨S10000x1, .f32⟩ : BufTy).Contents (Elt F)),
    binary main_v1 main_v2 main_v3 (Host.divf : (⟨S10000x1, .f32⟩ : BufTy).Contents (Elt F) → (⟨S10000x1, .f32⟩ : BufTy).Contents (Elt F) → (⟨S10000x1, .f32⟩ : BufTy).Contents (Elt F)),
    nullary main_c (constantI S_ 32 0#32),
    TRef.nullary main_call0.cst (constant S_ .f32 0x00000000#32),
    TRef.binary (.of main_arg0 : TRef sig ⟨S10000x128, .f32⟩) main_call0.cst main_call0.v0 (fun x v => Host.reduceAdd x v reducesTo_S10000x128_S10000_d1 h_S_),
    TRef.unary main_call0.v0 main_call0.v1 (broadcastInDim S10000x1 ![0] bcast_S10000_S10000x1_0),
    TRef.nullary main_call0.cst_0 (constant S_ .f32 0x43000000#32),
    TRef.unary main_call0.cst_0 main_call0.v2 (broadcastInDim S10000x1 ![] bcast_S_S10000x1),
    TRef.binary main_call0.v1 main_call0.v2 main_call0.v3 Host.divf,
    TRef.unary main_call0.v3 main_call0.v4 (broadcastInDim S10000x128 ![0, 1] bcast_S10000x1_S10000x128_0_1),
    TRef.binary (.of main_arg0 : TRef sig ⟨S10000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S10000_d1 h_S_),
    TRef.unary main_call0.v9 main_call0.v10 (broadcastInDim S10000x1 ![0] bcast_S10000_S10000x1_0),
    TRef.unary main_call0.v8 main_call0.v11 (broadcastInDim S10000x1 ![] bcast_S_S10000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S10000x1 ![] bcast_S_S10000x1),
    TRef.ternary main_call0.v13 main_call0.v12 main_call0.call0.v1 main_call0.call0.v2 (fun p a b => select (broadcastInDim S10000x1 ![] bcast_S_S10000x1 p) a b),
    unary main_v3 main_v5 (broadcastInDim S10000x128 ![0, 1] bcast_S10000x1_S10000x128_0_1 : (⟨S10000x1, .f32⟩ : BufTy).Contents (Elt F) → (⟨S10000x128, .f32⟩ : BufTy).Contents (Elt F)),
    binary main_arg0 main_v5 main_v6 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v7 (broadcastInDim S10000x1 ![] bcast_S_S10000x1 : (⟨S_, .f32⟩ : BufTy).Contents (Elt F) → (⟨S10000x1, .f32⟩ : BufTy).Contents (Elt F)),
    binary main_v4 main_v7 main_v8 (addf : (⟨S10000x1, .f32⟩ : BufTy).Contents (Elt F) → (⟨S10000x1, .f32⟩ : BufTy).Contents (Elt F) → (⟨S10000x1, .f32⟩ : BufTy).Contents (Elt F)),
    unary main_v8 main_v9 (Host.sqrt : (⟨S10000x1, .f32⟩ : BufTy).Contents (Elt F) → (⟨S10000x1, .f32⟩ : BufTy).Contents (Elt F)),
    unary main_v9 main_v10 (broadcastInDim S10000x128 ![0, 1] bcast_S10000x1_S10000x128_0_1 : (⟨S10000x1, .f32⟩ : BufTy).Contents (Elt F) → (⟨S10000x128, .f32⟩ : BufTy).Contents (Elt F)),
    binary main_v6 main_v10 main_v11 (Host.divf : (⟨S10000x128, .f32⟩ : BufTy).Contents (Elt F) → (⟨S10000x128, .f32⟩ : BufTy).Contents (Elt F) → (⟨S10000x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S10000x128 ![0, 1] bcast_S1x128_S10000x128_0_1 : (⟨S1x128, .f32⟩ : BufTy).Contents (Elt F) → (⟨S10000x128, .f32⟩ : BufTy).Contents (Elt F)),
    binary main_v11 main_v13 main_v14 (mulf : (⟨S10000x128, .f32⟩ : BufTy).Contents (Elt F) → (⟨S10000x128, .f32⟩ : BufTy).Contents (Elt F) → (⟨S10000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v14 main_v16 main_v17 (addf : (⟨S10000x128, .f32⟩ : BufTy).Contents (Elt F) → (⟨S10000x128, .f32⟩ : BufTy).Contents (Elt F) → (⟨S10000x128, .f32⟩ : BufTy).Contents (Elt F)),
    binary main_arg1 main_v17 main_v18 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v17 main_v18 main_v19 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    unary main_arg2 main_v20 ((transpose S256x128 [1, 0] · transposes_S128x256_S256x128_1_0) : (⟨S128x256, .f32⟩ : BufTy).Contents (Elt F) → (⟨S256x128, .f32⟩ : BufTy).Contents (Elt F)),
    binary main_v19 main_v20 main_v21 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    unary main_arg3 main_v22 (broadcastInDim S1x128 ![1] bcast_S128_S1x128_1 : (⟨S128, .f32⟩ : BufTy).Contents (Elt F) → (⟨S1x128, .f32⟩ : BufTy).Contents (Elt F)),
    unary main_v22 main_v23 (broadcastInDim S10000x128 ![0, 1] bcast_S1x128_S10000x128_0_1 : (⟨S1x128, .f32⟩ : BufTy).Contents (Elt F) → (⟨S10000x128, .f32⟩ : BufTy).Contents (Elt F)),
    binary main_v21 main_v23 main_v24 (addf : (⟨S10000x128, .f32⟩ : BufTy).Contents (Elt F) → (⟨S10000x128, .f32⟩ : BufTy).Contents (Elt F) → (⟨S10000x128, .f32⟩ : BufTy).Contents (Elt F)),
    TRef.nullary main_call1.cst (constant S_ .f32 0x00000000#32),
    TRef.unary main_call1.cst main_call1.v0 (broadcastInDim S10000x128 ![] bcast_S_S10000x128),
    TRef.binary (.of main_v24 : TRef sig ⟨S10000x128, .f32⟩) main_call1.v0 main_call1.v1 maximumf,
    binary main_v25 main_arg0 main_v26 (addf : (⟨S10000x128, .f32⟩ : BufTy).Contents (Elt F) → (⟨S10000x128, .f32⟩ : BufTy).Contents (Elt F) → (⟨S10000x128, .f32⟩ : BufTy).Contents (Elt F)) ]

-- fifty-five binds re-associated: the rewrite under the chain recurses once per statement
set_option maxRecDepth 2048 in
/-- @main is that straight line: the three functions' definitions unfolded at their calls, both sides are one chain
    of steps once sequencing is reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., binary_bufs_sub .., unary_bufs_sub .., binary_bufs_sub ..,
    unary_bufs_sub .., unary_bufs_sub .., binary_bufs_sub ..,
    nullary_bufs_sub .., unary_bufs_sub .., binary_bufs_sub ..,
    binary_bufs_sub ..⟩

/-- Every weakly fair execution of @main terminates, and every final state has each buffer at the operations' fold
    over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerm.lean ====
/-
  The reference's result as a composed term of the argument arrays, through four named stages (the column of row
  means, the column of guarded row variances, the normalised, scaled and shifted array H, the output), and the run
  restated over it: every weakly fair execution ends with the result buffer at that term of the arguments' launch
  contents, the arguments unchanged.
-/
import proofs.«118655_g17257178596104_cont_sun_c4_603_29_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The column of row means: each row's sum from the zero word, over 128. -/
def resMean (X : (⟨S10000x128, .f32⟩ : BufTy).Contents (Elt F)) : (⟨S10000x1, .f32⟩ : BufTy).Contents (Elt F) :=
  Host.divf
    (broadcastInDim S10000x1 ![0] bcast_S10000_S10000x1_0
      (Host.reduceAdd X (constant S_ .f32 0x00000000#32) reducesTo_S10000x128_S10000_d1 h_S_))
    (broadcastInDim S10000x1 ![] bcast_S_S10000x1 (constant S_ .f32 0x43000000#32))

/-- The variance's divisor: 128 less the integer zero read as a real. -/
def resCnt : (⟨S_, .f32⟩ : BufTy).Contents (Elt F) :=
  subf (constant S_ .f32 0x43000000#32) (sitofp .f32 (constantI S_ 32 0#32))

/-- The deviations from the row means. -/
def resDev (X : (⟨S10000x128, .f32⟩ : BufTy).Contents (Elt F)) : (⟨S10000x128, .f32⟩ : BufTy).Contents (Elt F) :=
  subf X (broadcastInDim S10000x128 ![0, 1] bcast_S10000x1_S10000x128_0_1 (resMean X))

/-- The column of row variances: the quotient of the squared deviations' row sum by the divisor where the divisor is
    positive, the not-a-number word elsewhere. -/
def resVar (X : (⟨S10000x128, .f32⟩ : BufTy).Contents (Elt F)) : (⟨S10000x1, .f32⟩ : BufTy).Contents (Elt F) :=
  select (broadcastInDim S10000x1 ![] bcast_S_S10000x1 (cmpf .ogt (resCnt (F := F)) (constant S_ .f32 0x00000000#32)))
    (Host.divf
      (broadcastInDim S10000x1 ![0] bcast_S10000_S10000x1_0
        (Host.reduceAdd (mulf (resDev X) (resDev X)) (constant S_ .f32 0x00000000#32) reducesTo_S10000x128_S10000_d1 h_S_))
      (broadcastInDim S10000x1 ![] bcast_S_S10000x1 (resCnt (F := F))))
    (broadcastInDim S10000x1 ![] bcast_S_S10000x1 (id (constant S_ .f32 0x7FC00000#32)))

/-- H: the deviations over the square root of the variance plus the small word, scaled by gamma, shifted by beta. -/
def resNorm (X : (⟨S10000x128, .f32⟩ : BufTy).Contents (Elt F)) (g β : (⟨S128, .f32⟩ : BufTy).Contents (Elt F)) : (⟨S10000x128, .f32⟩ : BufTy).Contents (Elt F) :=
  addf
    (mulf
      (Host.divf
        (subf X (broadcastInDim S10000x128 ![0, 1] bcast_S10000x1_S10000x128_0_1 (resMean X)))
        (broadcastInDim S10000x128 ![0, 1] bcast_S10000x1_S10000x128_0_1
          (Host.sqrt (addf (resVar X) (broadcastInDim S10000x1 ![] bcast_S_S10000x1 (constant S_ .f32 0x3727C5AC#32))))))
      (broadcastInDim S10000x128 ![0, 1] bcast_S1x128_S10000x128_0_1 (broadcastInDim S1x128 ![1] bcast_S128_S1x128_1 g)))
    (broadcastInDim S10000x128 ![0, 1] bcast_S1x128_S10000x128_0_1 (broadcastInDim S1x128 ![1] bcast_S128_S1x128_1 β))

/-- The row [H | A · H] of 256 entries. -/
def resCat (A : (⟨S10000x10000, .f32⟩ : BufTy).Contents (Elt F)) (H : (⟨S10000x128, .f32⟩ : BufTy).Contents (Elt F)) : (⟨S10000x256, .f32⟩ : BufTy).Contents (Elt F) :=
  concatenate S10000x256 1
    [⟨S10000x128, H⟩, ⟨S10000x128, Host.dotGeneral dot_S10000x10000_S10000x128_S10000x128_1_0_0_1_n_n none A H⟩]
    concatenates_S10000x128_S10000x128_S10000x256_d1

/-- The output over H: the linear map of [H | A · H] against W transposed, plus the bias, clamped at zero, plus X. -/
def resOutOf (X : (⟨S10000x128, .f32⟩ : BufTy).Contents (Elt F)) (A : (⟨S10000x10000, .f32⟩ : BufTy).Contents (Elt F)) (W : (⟨S128x256, .f32⟩ : BufTy).Contents (Elt F)) (b : (⟨S128, .f32⟩ : BufTy).Contents (Elt F))
    (H : (⟨S10000x128, .f32⟩ : BufTy).Contents (Elt F)) : (⟨S10000x128, .f32⟩ : BufTy).Contents (Elt F) :=
  addf
    (maximumf
      (addf
        (Host.dotGeneral dot_S10000x256_S256x128_S10000x128_1_0_0_1_n_n none (resCat A H)
          (transpose S256x128 [1, 0] W transposes_S128x256_S256x128_1_0))
        (broadcastInDim S10000x128 ![0, 1] bcast_S1x128_S10000x128_0_1 (broadcastInDim S1x128 ![1] bcast_S128_S1x128_1 b)))
      (broadcastInDim S10000x128 ![] bcast_S_S10000x128 (constant S_ .f32 0x00000000#32)))
    X

/-- The output as a function of the six argument arrays. -/
def resOut (X : (⟨S10000x128, .f32⟩ : BufTy).Contents (Elt F)) (A : (⟨S10000x10000, .f32⟩ : BufTy).Contents (Elt F)) (W : (⟨S128x256, .f32⟩ : BufTy).Contents (Elt F)) (b g β : (⟨S128, .f32⟩ : BufTy).Contents (Elt F)) :
    (⟨S10000x128, .f32⟩ : BufTy).Contents (Elt F) :=
  resOutOf X A W b (resNorm X g β)

attribute [local irreducible] Host.reduceAdd Host.divf Host.sqrt broadcastInDim concatenate transpose in
set_option maxRecDepth 8192 in
set_option maxHeartbeats 1600000 in
/-- The fold at the result buffer is the composed term: each operation's result read at its own buffer, the calls'
    typed references the identity at these literal buffers. -/
theorem out_eq (V : Valuation τ sig (Elt F)) :
    after ops V (main_v26 : DevRef τ sig)
      = resOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of @main
    terminates with the result at the composed term of the arguments and the arguments unchanged. -/
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = resOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v26).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_after m ρ)

end Cert.ReferenceIdeal.Hand

end
-- ==== Proof.RefStages.lean ====
/-
  The reference's host operations that move data, each read at an index at the literal shapes of this layer, at the
  extended reals: a row sum of a [10000, 128] array from an initial word, the keepdims column of a vector, a column
  copied along the rows, a vector copied down the rows (through a one-row matrix), a scalar copied everywhere, the
  product of two matrices as a sum over the contracted coordinate, two arrays laid side by side, and a transpose.
  Every lemma is stated over variable operand arrays.
-/
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StackMember

noncomputable section

open scoped BigOperators

namespace Cert.ReferenceIdeal.Hand.Stage

open Idealize.ShloMosaic Idealize.ShloMosaic.ValueIdx

/-- A row sum: the initial word plus the sum of the row's 128 entries. -/
theorem rowSum_apply (x : FVec Ideal ⟨2, ![10000, 128]⟩ .f32) (init : (⟨0, ![]⟩ : Shape).Idx → Ideal .f32)
    (h : (⟨2, ![10000, 128]⟩ : Shape).ReducesTo [1] ⟨1, ![10000]⟩) (hu : 0 < (⟨0, ![]⟩ : Shape).numel) (r : Fin 10000) :
    Host.reduceAdd x init h hu (ix1 r) = init ix0 + ∑ k : Fin 128, x (ix2 r k) := by
  have hR : (⟨2, ![10000, 128]⟩ : Shape).Reduces [1] ⟨1, ![10000]⟩ := by decide
  rw [hostReduceAdd_apply, Ideal.hostReduceAdd_single h hR, eq_ix0 (Shape.Idx.first hu)]
  refine congrArg (init ix0 + ·) (Finset.sum_congr rfl fun k _ => congrArg x ?_)
  funext a; apply Fin.ext
  match a with
  | ⟨0, _⟩ => rfl
  | ⟨1, _⟩ => rfl

/-- The keepdims column of a vector of 10000. -/
theorem column_apply {α : Type} (x : (⟨1, ![10000]⟩ : Shape).Idx → α)
    (h : (⟨1, ![10000]⟩ : Shape).BroadcastsInDim ⟨2, ![10000, 1]⟩ (![0] : Fin 1 → Fin 2)) (r : Fin 10000) (z : Fin 1) :
    broadcastInDim ⟨2, ![10000, 1]⟩ ![0] h x (ix2 r z) = x (ix1 r) :=
  broadcastInDim_apply _ h x _ _ fun a => match a with | ⟨0, _⟩ => rfl

/-- A column copied along the rows. -/
theorem alongRows_apply {α : Type} (x : (⟨2, ![10000, 1]⟩ : Shape).Idx → α)
    (h : (⟨2, ![10000, 1]⟩ : Shape).BroadcastsInDim ⟨2, ![10000, 128]⟩ (![0, 1] : Fin 2 → Fin 2)) (r : Fin 10000) (j : Fin 128) :
    broadcastInDim ⟨2, ![10000, 128]⟩ ![0, 1] h x (ix2 r j) = x (ix2 r 0) :=
  broadcastInDim_apply _ h x _ _ fun a => match a with | ⟨0, _⟩ => rfl | ⟨1, _⟩ => rfl

/-- A vector of 128 as a one-row matrix. -/
theorem oneRow_apply {α : Type} (x : (⟨1, ![128]⟩ : Shape).Idx → α)
    (h : (⟨1, ![128]⟩ : Shape).BroadcastsInDim ⟨2, ![1, 128]⟩ (![1] : Fin 1 → Fin 2)) (z : Fin 1) (j : Fin 128) :
    broadcastInDim ⟨2, ![1, 128]⟩ ![1] h x (ix2 z j) = x (ix1 j) :=
  broadcastInDim_apply _ h x _ _ fun a => match a with | ⟨0, _⟩ => rfl

/-- A one-row matrix copied down the rows. -/
theorem downRows_apply {α : Type} (x : (⟨2, ![1, 128]⟩ : Shape).Idx → α)
    (h : (⟨2, ![1, 128]⟩ : Shape).BroadcastsInDim ⟨2, ![10000, 128]⟩ (![0, 1] : Fin 2 → Fin 2)) (r : Fin 10000) (j : Fin 128) :
    broadcastInDim ⟨2, ![10000, 128]⟩ ![0, 1] h x (ix2 r j) = x (ix2 0 j) :=
  broadcastInDim_apply _ h x _ _ fun a => match a with | ⟨0, _⟩ => rfl | ⟨1, _⟩ => rfl

/-- The aggregation: a [10000, 10000] by [10000, 128] product at (r, j). -/
theorem agg_apply (w : DotDims.WF ⟨2, ![10000, 10000]⟩ ⟨2, ![10000, 128]⟩ ⟨2, ![10000, 128]⟩ [1] [0] [0] [1] [] [])
    (A : FVec Ideal ⟨2, ![10000, 10000]⟩ .f32) (H : FVec Ideal ⟨2, ![10000, 128]⟩ .f32) (r : Fin 10000) (j : Fin 128) :
    Host.dotGeneral (⟨[1], [0], [0], [1], [], [], w⟩ : DotDims _ _ _) none A H (ix2 r j)
      = ∑ l : Fin 10000, A (ix2 r l) * H (ix2 l j) :=
  StackMember.dotGeneral_plain_apply (m := 10000) (n := 128) (k := 10000) none A H r j

/-- The linear map: a [10000, 256] by [256, 128] product at (r, q). -/
theorem lin_apply (w : DotDims.WF ⟨2, ![10000, 256]⟩ ⟨2, ![256, 128]⟩ ⟨2, ![10000, 128]⟩ [1] [0] [0] [1] [] [])
    (C : FVec Ideal ⟨2, ![10000, 256]⟩ .f32) (Wt : FVec Ideal ⟨2, ![256, 128]⟩ .f32) (r : Fin 10000) (q : Fin 128) :
    Host.dotGeneral (⟨[1], [0], [0], [1], [], [], w⟩ : DotDims _ _ _) none C Wt (ix2 r q)
      = ∑ k : Fin 256, C (ix2 r k) * Wt (ix2 k q) :=
  StackMember.dotGeneral_plain_apply (m := 10000) (n := 128) (k := 256) none C Wt r q

/-- Two [10000, 128] arrays side by side, read in the left half. -/
theorem sideBySide_left {α : Type} (x₁ x₂ : (⟨2, ![10000, 128]⟩ : Shape).Idx → α)
    (h : Shape.Concatenates [(⟨2, ![10000, 128]⟩ : Shape), ⟨2, ![10000, 128]⟩] ⟨2, ![10000, 256]⟩ 1)
    (r : Fin 10000) (k : Fin 256) (hk : k.val < 128) :
    concatenate ⟨2, ![10000, 256]⟩ 1 [⟨⟨2, ![10000, 128]⟩, x₁⟩, ⟨⟨2, ![10000, 128]⟩, x₂⟩] h (ix2 r k) = x₁ (ix2 r ⟨k.val, hk⟩) :=
  concatenate_pair_apply_left (1 : Fin 2) x₁ x₂ h (ix2 r k) rfl (ix2 r ⟨k.val, hk⟩)
    fun b => match b with | ⟨0, _⟩ => rfl | ⟨1, _⟩ => rfl

/-- Two [10000, 128] arrays side by side, read in the right half. -/
theorem sideBySide_right {α : Type} (x₁ x₂ : (⟨2, ![10000, 128]⟩ : Shape).Idx → α)
    (h : Shape.Concatenates [(⟨2, ![10000, 128]⟩ : Shape), ⟨2, ![10000, 128]⟩] ⟨2, ![10000, 256]⟩ 1)
    (r : Fin 10000) (k : Fin 256) (hk : ¬ k.val < 128) :
    concatenate ⟨2, ![10000, 256]⟩ 1 [⟨⟨2, ![10000, 128]⟩, x₁⟩, ⟨⟨2, ![10000, 128]⟩, x₂⟩] h (ix2 r k)
      = x₂ (ix2 r ⟨k.val - 128, by omega⟩) :=
  concatenate_pair_apply_right (1 : Fin 2) x₁ x₂ h (ix2 r k) rfl rfl (ix2 r ⟨k.val - 128, by omega⟩)
    (fun b => match b with | ⟨0, _⟩ => fun _ => rfl | ⟨1, _⟩ => fun hb => absurd rfl hb)
    (by show k.val - 128 + 128 = k.val; omega)

end Cert.ReferenceIdeal.Hand.Stage

end
-- ==== Proof.RefValue.lean ====
/-
  The reference's composed term is the specification's reference spelling, index by index, at the extended reals:
  each named stage read at an index — the row means and variances (row sums from the zero word, the guarded quotient
  left as it is), the normalised array H, the aggregation as a sum over 10000 rows, the row [H | A · H] with its two
  halves, the linear map as one sum of 256 terms against W transposed — and with it the run stated over the
  specification.
-/
import proofs.«118655_g17257178596104_cont_sun_c4_603_29_alg».proof.Proof.RefTerm
import proofs.«118655_g17257178596104_cont_sun_c4_603_29_alg».proof.Proof.RefStages
import proofs.«118655_g17257178596104_cont_sun_c4_603_29_alg».proof.Proof.Spec

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.ValueIdx Cert.Layer

/-- The host's square root at an index is the extended reals' square root of the element. -/
theorem hostSqrt_apply {s : Shape} {φ : FTy} (a : FVec Ideal s φ) (i : s.Idx) : Host.sqrt a i = Ideal.sqrt (a i) := rfl

/-- Row r's mean. -/
theorem resMean_apply (X : Arr2 10000 128) (r : Fin 10000) (z : Fin 1) :
    resMean (F := Ideal) X (ix2 r z) = meanR X r := by
  unfold resMean meanR
  rw [hostDivf_apply, Stage.column_apply, Stage.rowSum_apply, broadcastInDim_scalar_apply]
  rfl

/-- The variance's divisor. -/
theorem resCnt_apply : resCnt (F := Ideal) ix0 = cntR := rfl

/-- Row r's deviations. -/
theorem resDev_apply (X : Arr2 10000 128) (r : Fin 10000) (k : Fin 128) :
    resDev (F := Ideal) X (ix2 r k) = X (ix2 r k) - meanR X r := by
  unfold resDev
  rw [subf_apply, Stage.alongRows_apply, resMean_apply]

/-- Row r's variance: the guarded quotient, the guard and the selection as the program has them. -/
theorem resVar_apply (X : Arr2 10000 128) (r : Fin 10000) (z : Fin 1) :
    resVar (F := Ideal) X (ix2 r z) = varR X r := by
  unfold resVar varR
  rw [select_apply, broadcastInDim_scalar_apply, broadcastInDim_scalar_apply, hostDivf_apply, Stage.column_apply,
    Stage.rowSum_apply, broadcastInDim_scalar_apply, cmpf_apply, resCnt_apply]
  simp only [mulf_apply, resDev_apply]
  rfl

/-- The normalised, scaled and shifted entry (r, j). -/
theorem resNorm_apply (X : Arr2 10000 128) (g β : Arr1 128) (r : Fin 10000) (j : Fin 128) :
    resNorm (F := Ideal) X g β (ix2 r j) = normR X g β r j := by
  unfold resNorm normR
  rw [addf_apply, mulf_apply, hostDivf_apply, subf_apply, Stage.alongRows_apply, Stage.alongRows_apply,
    Stage.downRows_apply, Stage.oneRow_apply, Stage.downRows_apply, Stage.oneRow_apply, resMean_apply, hostSqrt_apply,
    addf_apply, resVar_apply, broadcastInDim_scalar_apply]
  rfl

/-- Entry (r, k) of the row [H | A · H]: H's on the left half, the aggregation's on the right. -/
theorem resCat_apply (X : Arr2 10000 128) (A : Arr2 10000 10000) (g β : Arr1 128) (r : Fin 10000) (k : Fin 256) :
    resCat (F := Ideal) A (resNorm (F := Ideal) X g β) (ix2 r k) = catR X A g β r k := by
  unfold resCat catR
  by_cases hk : k.val < 128
  · rw [dif_pos hk, Stage.sideBySide_left _ _ _ r k hk, resNorm_apply]
  · rw [dif_neg hk, Stage.sideBySide_right _ _ _ r k hk]
    unfold aggR dot_S10000x10000_S10000x128_S10000x128_1_0_0_1_n_n
    rw [Stage.agg_apply]
    exact Finset.sum_congr rfl fun l _ => by rw [resNorm_apply]

/-- Entry (r, q) of the output. -/
theorem resOut_apply (X : Arr2 10000 128) (A : Arr2 10000 10000) (W : Arr2 128 256) (b g β : Arr1 128)
    (r : Fin 10000) (q : Fin 128) :
    resOut (F := Ideal) X A W b g β (ix2 r q) = outR X A W b g β r q := by
  unfold resOut resOutOf outR dot_S10000x256_S256x128_S10000x128_1_0_0_1_n_n
  rw [addf_apply, maximumf_apply, addf_apply, Stage.downRows_apply, Stage.oneRow_apply, broadcastInDim_scalar_apply,
    Stage.lin_apply]
  have hs : ∑ k : Fin 256, resCat (F := Ideal) A (resNorm (F := Ideal) X g β) (ix2 r k)
        * transpose S256x128 [1, 0] W transposes_S128x256_S256x128_1_0 (ix2 k q)
      = ∑ k : Fin 256, catR X A g β r k * W (ix2 q k) :=
    Finset.sum_congr rfl fun k _ => by rw [resCat_apply, transpose_ix2_apply]
  rw [hs]
  rfl

/-- The composed term is the specification's reference array. -/
theorem resOut_eq (X : Arr2 10000 128) (A : Arr2 10000 10000) (W : Arr2 128 256) (b g β : Arr1 128) :
    resOut (F := Ideal) X A W b g β = arrR X A W b g β := by
  funext i
  obtain ⟨r, q, rfl⟩ : ∃ (r : Fin 10000) (q : Fin 128), i = ix2 r q := ⟨i 0, i 1, eq_ix2 i⟩
  exact resOut_apply X A W b g β r q

/-- On every device, from any memory with zero counters: every weakly fair execution of the reference's @main at the
    extended reals terminates with its result the specification's reference array of the arguments, the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v26)
        = Cert.Layer.arrR (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (resOut_eq _ _ _ _ _ _), (h c).2⟩) (run_res m ρ)

end Cert.ReferenceIdeal.Hand

end
-- ==== Proof.lean ====
/-
  One graph layer computed two ways gives equal results on the extended reals.

  The layer: normalise each of the 10000 rows of X over its 128 entries (subtract the row mean, divide by the
  square root of the row variance plus a small positive number), scale and shift by gamma and beta to get H;
  aggregate H over the dense 10000-by-10000 adjacency, N = A H; apply one linear map to the 256-entry row [H | N],
  add the bias, clamp at zero, and add X back.

  The kernel walks 25 blocks of 400 rows. At its first block it normalises ALL of X once into two resident arrays
  (the second a narrowed copy, which at exact values is the same array), and every block then multiplies its rows of A
  by the resident H, takes the linear map as H W1^T + N W2^T with W = [W1 | W2], and finishes in place. It multiplies
  by the reciprocal square root where the reference divides by the square root.

  Why the two agree. (1) The resident arrays hold the normalisation of X after EVERY block, because only the first
  block writes them (KFinal.lean, an induction over the blocks); so each block is the layer's output on its own rows,
  and the 25 blocks tile the result. (2) The reference's result, operation by operation, is the same function spelt
  with a division by the square root, row sums started from the zero word, a variance divisor of 128 less a converted
  integer zero under a guard that selects the quotient, and one 256-term sum over the concatenated row. (3) When X is
  finite the variance plus the small number is a positive real v, and for such v dividing by its square root IS
  multiplying by its reciprocal square root, for every extended-real numerator; the guard evaluates to "take the
  quotient"; and a 256-term sum is its two 128-term halves, by associativity and commutativity alone (Algebra.lean).
  Only X's finiteness is used, and it comes from the precondition (Finite.lean).

  The three programs run, nothing faults and the arguments end unchanged: the two kernels by their frame runs, the
  reference by its run with the result dropped. The idealisation rewrote nothing, so its conjunct is trivial.
-/
import proofs.«118655_g17257178596104_cont_sun_c4_603_29_alg».proof.Defs
import proofs.«118655_g17257178596104_cont_sun_c4_603_29_alg».proof.Proof.Gen.Kernel
import proofs.«118655_g17257178596104_cont_sun_c4_603_29_alg».proof.Proof.Gen.Kernel.Skeleton
import proofs.«118655_g17257178596104_cont_sun_c4_603_29_alg».proof.Proof.Gen.Kernel.Launch
import proofs.«118655_g17257178596104_cont_sun_c4_603_29_alg».proof.Proof.Gen.Kernel.Points
import proofs.«118655_g17257178596104_cont_sun_c4_603_29_alg».proof.Proof.Gen.Kernel.Frame
import proofs.«118655_g17257178596104_cont_sun_c4_603_29_alg».proof.Proof.Gen.KernelIdeal
import proofs.«118655_g17257178596104_cont_sun_c4_603_29_alg».proof.Proof.Gen.KernelIdeal.Skeleton
import proofs.«118655_g17257178596104_cont_sun_c4_603_29_alg».proof.Proof.Gen.KernelIdeal.Launch
import proofs.«118655_g17257178596104_cont_sun_c4_603_29_alg».proof.Proof.Gen.KernelIdeal.Points
import proofs.«118655_g17257178596104_cont_sun_c4_603_29_alg».proof.Proof.Gen.KernelIdeal.Frame
import proofs.«118655_g17257178596104_cont_sun_c4_603_29_alg».proof.Proof.Gen.ReferenceIdeal
import proofs.«118655_g17257178596104_cont_sun_c4_603_29_alg».proof.Proof.Gen.Pre_finite_inputs
import proofs.«118655_g17257178596104_cont_sun_c4_603_29_alg».proof.Proof.Gen.KernelIdeal.Value
import proofs.«118655_g17257178596104_cont_sun_c4_603_29_alg».proof.Proof.Spec
import proofs.«118655_g17257178596104_cont_sun_c4_603_29_alg».proof.Proof.Algebra
import proofs.«118655_g17257178596104_cont_sun_c4_603_29_alg».proof.Proof.Finite
import proofs.«118655_g17257178596104_cont_sun_c4_603_29_alg».proof.Proof.KFinal
import proofs.«118655_g17257178596104_cont_sun_c4_603_29_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Hand.run m ρ)

/-- Reading the kernel at exact values rewrote nothing. -/
theorem preserves : Cert.preserves_Kernel_KernelIdeal := trivial

/-- From arguments that agree, with X finite, the kernel's result array and the reference's are the layer's output in
    its two spellings, and those are one function. -/
theorem algebraic : Cert.algebraic_KernelIdeal_ReferenceIdeal := by
  intro m ρ m' ρ' hpre hagree
  refine ⟨fun c => Cert.KernelIdeal.Hand.layerOut m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5⟩ := hagree c
  rw [h0, h1, h2, h3, h4, h5]
  exact (Cert.Layer.arrK_eq_arrR _ _ _ _ _ _ (Cert.Layer.Finite.x_real _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
